-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S524288x64 : Shape := ⟨2, ![524288, 64]⟩
abbrev S524288x128 : Shape := ⟨2, ![524288, 128]⟩
abbrev S524288x256 : Shape := ⟨2, ![524288, 256]⟩
abbrev S64x32 : Shape := ⟨2, ![64, 32]⟩
abbrev S64 : Shape := ⟨1, ![64]⟩
abbrev S32x64 : Shape := ⟨2, ![32, 64]⟩
abbrev S32 : Shape := ⟨1, ![32]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S256x128 : Shape := ⟨2, ![256, 128]⟩
abbrev S256 : Shape := ⟨1, ![256]⟩
abbrev S128x128 : Shape := ⟨2, ![128, 128]⟩
abbrev S128x256 : Shape := ⟨2, ![128, 256]⟩
abbrev S256x256 : Shape := ⟨2, ![256, 256]⟩
abbrev S_ : Shape := ⟨0, ![]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S524288x128 : S_.BroadcastsInDim S524288x128 (![] : Fin 0 → Fin S524288x128.rank)
  reducesTo_S524288x128_S_d0_1 : S524288x128.ReducesTo [0, 1] S_
  bcast_S_S524288x256 : S_.BroadcastsInDim S524288x256 (![] : Fin 0 → Fin S524288x256.rank)
  reducesTo_S524288x256_S_d0_1 : S524288x256.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part6 {F : FTy → Type} [FloatOps F] (main_arg21 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  main_v108

def fn_part5 {F : FTy → Type} [FloatOps F] (main_arg18 : FVec F S128x256 .f32) (main_arg19 : FVec F S128 .f32) (main_arg20 : FVec F S256x256 .f32) (main_arg21 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x256 .f32 := Host.absf main_arg18
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x128 .f32) (main_arg15 : FVec F S256 .f32) (main_arg16 : FVec F S128x128 .f32) (main_arg17 : FVec F S128 .f32) (main_arg18 : FVec F S128x256 .f32) (main_arg19 : FVec F S128 .f32) (main_arg20 : FVec F S256x256 .f32) (main_arg21 : FVec F S256 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128 .f32) (main_arg12 : FVec F S64x128 .f32) (main_arg13 : FVec F S64 .f32) (main_arg14 : FVec F S256x128 .f32) (main_arg15 : FVec F S256 .f32) (main_arg16 : FVec F S128x128 .f32) (main_arg17 : FVec F S128 .f32) (main_arg18 : FVec F S128x256 .f32) (main_arg19 : FVec F S128 .f32) (main_arg20 : FVec F S256x256 .f32) (main_arg21 : FVec F S256 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg12
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S32 .f32) (main_arg8 : FVec F S64x64 .f32) (main_arg9 : FVec F S64 .f32) (main_arg10 : FVec F S128x64 .f32) (main_arg11 : FVec F S128 .f32) (main_arg12 : FVec F S64x128 .f32) (main_arg13 : FVec F S64 .f32) (main_arg14 : FVec F S256x128 .f32) (main_arg15 : FVec F S256 .f32) (main_arg16 : FVec F S128x128 .f32) (main_arg17 : FVec F S128 .f32) (main_arg18 : FVec F S128x256 .f32) (main_arg19 : FVec F S128 .f32) (main_arg20 : FVec F S256x256 .f32) (main_arg21 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64x32 .f32) (main_arg5 : FVec F S64 .f32) (main_arg6 : FVec F S32x64 .f32) (main_arg7 : FVec F S32 .f32) (main_arg8 : FVec F S64x64 .f32) (main_arg9 : FVec F S64 .f32) (main_arg10 : FVec F S128x64 .f32) (main_arg11 : FVec F S128 .f32) (main_arg12 : FVec F S64x128 .f32) (main_arg13 : FVec F S64 .f32) (main_arg14 : FVec F S256x128 .f32) (main_arg15 : FVec F S256 .f32) (main_arg16 : FVec F S128x128 .f32) (main_arg17 : FVec F S128 .f32) (main_arg18 : FVec F S128x256 .f32) (main_arg19 : FVec F S128 .f32) (main_arg20 : FVec F S256x256 .f32) (main_arg21 : FVec F S256 .f32) (main_v13 : IVec S_ 1) (main_v16 : IVec S524288x256 1) : IVec S_ 1 :=
  let main_c_5 : IVec S_ 1 := constantI S_ 1 1#1
  let main_v17 : IVec S_ 1 := (fun x v => Host.reduce IntOp.andi x v reducesTo_S524288x256_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S524288x32 .f32) (main_arg1 : FVec F S524288x64 .f32) (main_arg2 : FVec F S524288x128 .f32) (main_arg3 : FVec F S524288x256 .f32) (main_arg4 : FVec F S64x32 .f32) (main_arg5 : FVec F S64 .f32) (main_arg6 : FVec F S32x64 .f32) (main_arg7 : FVec F S32 .f32) (main_arg8 : FVec F S64x64 .f32) (main_arg9 : FVec F S64 .f32) (main_arg10 : FVec F S128x64 .f32) (main_arg11 : FVec F S128 .f32) (main_arg12 : FVec F S64x128 .f32) (main_arg13 : FVec F S64 .f32) (main_arg14 : FVec F S256x128 .f32) (main_arg15 : FVec F S256 .f32) (main_arg16 : FVec F S128x128 .f32) (main_arg17 : FVec F S128 .f32) (main_arg18 : FVec F S128x256 .f32) (main_arg19 : FVec F S128 .f32) (main_arg20 : FVec F S256x256 .f32) (main_arg21 : FVec F S256 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  let main_v14 : FVec F S524288x256 .f32 := Host.absf main_arg3
  let main_cst_4 : FVec F S_ .f32 := constant S_ .f32 0x7F800000#32
  let main_v15 : FVec F S524288x256 .f32 := broadcastInDim S524288x256 ![] bcast_S_S524288x256 main_cst_4
  let main_v16 : IVec S524288x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S524288x32 : Shape := ⟨2, ![524288, 32]⟩
abbrev S524288x64 : Shape := ⟨2, ![524288, 64]⟩
abbrev S524288x128 : Shape := ⟨2, ![524288, 128]⟩
abbrev S524288x256 : Shape := ⟨2, ![524288, 256]⟩
abbrev S64x32 : Shape := ⟨2, ![64, 32]⟩
abbrev S64 : Shape := ⟨1, ![64]⟩
abbrev S32x64 : Shape := ⟨2, ![32, 64]⟩
abbrev S32 : Shape := ⟨1, ![32]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S256x128 : Shape := ⟨2, ![256, 128]⟩
abbrev S256 : Shape := ⟨1, ![256]⟩
abbrev S128x128 : Shape := ⟨2, ![128, 128]⟩
abbrev S128x256 : Shape := ⟨2, ![128, 256]⟩
abbrev S256x256 : Shape := ⟨2, ![256, 256]⟩
abbrev S8192x32 : Shape := ⟨2, ![8192, 32]⟩
abbrev S8192x64 : Shape := ⟨2, ![8192, 64]⟩
abbrev S8192x128 : Shape := ⟨2, ![8192, 128]⟩
abbrev S2048x32 : Shape := ⟨2, ![2048, 32]⟩
abbrev S2048x64 : Shape := ⟨2, ![2048, 64]⟩
abbrev S2048x128 : Shape := ⟨2, ![2048, 128]⟩
abbrev S1x64 : Shape := ⟨2, ![1, 64]⟩
abbrev S1x32 : Shape := ⟨2, ![1, 32]⟩

abbrev nBuf : Space → Nat
  | .hbm => 29
  | .vmem => 14
  | .smem => 0
  | _ => 0

abbrev bufTy : (tb : Table) → Fin (tcTables nBuf tb) → BufTy
  | .hbm, ⟨0, _⟩ => ⟨S524288x32, .f32⟩
  | .hbm, ⟨1, _⟩ => ⟨S524288x64, .f32⟩
  | .hbm, ⟨2, _⟩ => ⟨S524288x128, .f32⟩
  | .hbm, ⟨3, _⟩ => ⟨S524288x256, .f32⟩
  | .hbm, ⟨4, _⟩ => ⟨S64x32, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S256x128, .f32⟩
  | .hbm, ⟨15, _⟩ => ⟨S256, .f32⟩
  | .hbm, ⟨16, _⟩ => ⟨S128x128, .f32⟩
  | .hbm, ⟨17, _⟩ => ⟨S128, .f32⟩
  | .hbm, ⟨18, _⟩ => ⟨S128x256, .f32⟩
  | .hbm, ⟨19, _⟩ => ⟨S128, .f32⟩
  | .hbm, ⟨20, _⟩ => ⟨S256x256, .f32⟩
  | .hbm, ⟨21, _⟩ => ⟨S256, .f32⟩
  | .hbm, ⟨22, _⟩ => ⟨S32x64, .f32⟩
  | .hbm, ⟨23, _⟩ => ⟨S64x64, .f32⟩
  | .hbm, ⟨24, _⟩ => ⟨S128x64, .f32⟩
  | .hbm, ⟨25, _⟩ => ⟨S64x32, .f32⟩
  | .hbm, ⟨26, _⟩ => ⟨S64, .f32⟩
  | .hbm, ⟨27, _⟩ => ⟨S64, .f32⟩
  | .hbm, ⟨28, _⟩ => ⟨S524288x32, .f32⟩
  | .local _ .vmem, ⟨0, _⟩ => ⟨S8192x32, .f32⟩
  | .local _ .vmem, ⟨1, _⟩ => ⟨S8192x32, .f32⟩
  | .local _ .vmem, ⟨2, _⟩ => ⟨S8192x64, .f32⟩
  | .local _ .vmem, ⟨3, _⟩ => ⟨S8192x64, .f32⟩
  | .local _ .vmem, ⟨4, _⟩ => ⟨S8192x128, .f32⟩
  | .local _ .vmem, ⟨5, _⟩ => ⟨S8192x128, .f32⟩
  | .local _ .vmem, ⟨6, _⟩ => ⟨S32x64, .f32⟩
  | .local _ .vmem, ⟨7, _⟩ => ⟨S64x64, .f32⟩
  | .local _ .vmem, ⟨8, _⟩ => ⟨S128x64, .f32⟩
  | .local _ .vmem, ⟨9, _⟩ => ⟨S64x32, .f32⟩
  | .local _ .vmem, ⟨10, _⟩ => ⟨S64, .f32⟩
  | .local _ .vmem, ⟨11, _⟩ => ⟨S32, .f32⟩
  | .local _ .vmem, ⟨12, _⟩ => ⟨S8192x32, .f32⟩
  | .local _ .vmem, ⟨13, _⟩ => ⟨S8192x32, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c2048_i32 : BitVec 32 := 2048#32
  let v15 : BitVec 32 := Scalar.muli c0_i32 c2048_i32
  v15
def k0_off1 (c0_i32 : BitVec 32) : Fin 2 → Nat :=
  let c2048_i32 : BitVec 32 := 2048#32
  let v15 : BitVec 32 := Scalar.muli c0_i32 c2048_i32
  let v16 : BitVec 32 := v15
  let v17 : Index := Scalar.indexCast v16
  let c0_9 : Index := 0#32
  ![v17.toNat, 0]
def k0_off2 (c0_i32 : BitVec 32) : Fin 2 → Nat :=
  let c2048_i32 : BitVec 32 := 2048#32
  let v15 : BitVec 32 := Scalar.muli c0_i32 c2048_i32
  let v16 : BitVec 32 := v15
  let v20 : Index := Scalar.indexCast v16
  let c0_10 : Index := 0#32
  ![v20.toNat, 0]
def k0_off3 (c0_i32 : BitVec 32) : Fin 2 → Nat :=
  let c2048_i32 : BitVec 32 := 2048#32
  let v15 : BitVec 32 := Scalar.muli c0_i32 c2048_i32
  let v16 : BitVec 32 := v15
  let v23 : Index := Scalar.indexCast v16
  let c0_11 : Index := 0#32
  ![v23.toNat, 0]
def k0_mult2 : BitVec 32 :=
  let c1_i32 : BitVec 32 := 1#32
  let c2048_i32_18 : BitVec 32 := 2048#32
  let v48 : BitVec 32 := Scalar.muli c1_i32 c2048_i32_18
  v48
def k0_mult3 : BitVec 32 :=
  let c2_i32 : BitVec 32 := 2#32
  let c2048_i32_29 : BitVec 32 := 2048#32
  let v81 : BitVec 32 := Scalar.muli c2_i32 c2048_i32_29
  v81
def k0_mult4 : BitVec 32 :=
  let c3_i32 : BitVec 32 := 3#32
  let c2048_i32_40 : BitVec 32 := 2048#32
  let v114 : BitVec 32 := Scalar.muli c3_i32 c2048_i32_40
  v114
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x32_S32x64_1_0 : S64x32.Transposes [1, 0] S32x64
  transposes_S64x64_S64x64_1_0 : S64x64.Transposes [1, 0] S64x64
  transposes_S64x128_S128x64_1_0 : S64x128.Transposes [1, 0] S128x64
  transposes_S32x64_S64x32_1_0 : S32x64.Transposes [1, 0] S64x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64_S64_0 : ∀ a, (![0] : Fin 1 → Nat) a + S64.size a ≤ S64.size a
  h_S64 : 0 < S64.numel
  shapeCasts_S64_S64 : S64.ShapeCasts S64
  inb_S32_S32_0 : ∀ a, (![0] : Fin 1 → Nat) a + S32.size a ≤ S32.size a
  h_S32 : 0 < S32.numel
  h_S2048x32 : 0 < S2048x32.numel
  h_S2048x64 : 0 < S2048x64.numel
  h_S2048x128 : 0 < S2048x128.numel
  shapeCasts_S64_S1x64 : S64.ShapeCasts S1x64
  broadcasts_S1x64_S2048x64 : S1x64.Broadcasts S2048x64
  shapeCasts_S32_S1x32 : S32.ShapeCasts S1x32
  broadcasts_S1x32_S2048x32 : S1x32.Broadcasts S2048x32
  dot_S2048x32_S32x64_S2048x64_1_0_0_1_n_n_wf : DotDims.WF S2048x32 S32x64 S2048x64 [1] [0] [0] [1] [] []
  dot_S2048x64_S64x64_S2048x64_1_0_0_1_n_n_wf : DotDims.WF S2048x64 S64x64 S2048x64 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  hrank0 : 0 < grid0.rank
  k0_mult1_dvd : 2048 ∣ k0_mult1.toNat
  k0_off1_inb : ∀ (r : Fin 4), ∀ a, (k0_off1 (BitVec.ofNat 32 r.val)) a + S2048x32.size a ≤ S8192x32.size a
  k0_off2_inb : ∀ (r : Fin 4), ∀ a, (k0_off2 (BitVec.ofNat 32 r.val)) a + S2048x64.size a ≤ S8192x64.size a
  k0_off3_inb : ∀ (r : Fin 4), ∀ a, (k0_off3 (BitVec.ofNat 32 r.val)) a + S2048x128.size a ≤ S8192x128.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S524288x32.size a
  hwx0_0 : ∀ i : grid0.Coords, EltTy.bits .f32 = 32 ∨ (Rect.block (s := S524288x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S524288x64.size a
  hwx0_1 : ∀ i : grid0.Coords, EltTy.bits .f32 = 32 ∨ (Rect.block (s := S524288x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x32.size a ≤ S524288x32.size a
  hwx0_9 : ∀ i : grid0.Coords, EltTy.bits .f32 = 32 ∨ (Rect.block (s := S524288x32) S8192x32.size (cc0_transform_9 i) (hinb0_9 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S8192x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x32 : Shape := ⟨2, ![524288, 32]⟩
abbrev S524288x64 : Shape := ⟨2, ![524288, 64]⟩
abbrev S524288x128 : Shape := ⟨2, ![524288, 128]⟩
abbrev S524288x256 : Shape := ⟨2, ![524288, 256]⟩
abbrev S64x32 : Shape := ⟨2, ![64, 32]⟩
abbrev S64 : Shape := ⟨1, ![64]⟩
abbrev S32x64 : Shape := ⟨2, ![32, 64]⟩
abbrev S32 : Shape := ⟨1, ![32]⟩
abbrev S64x64 : Shape := ⟨2, ![64, 64]⟩
abbrev S128x64 : Shape := ⟨2, ![128, 64]⟩
abbrev S128 : Shape := ⟨1, ![128]⟩
abbrev S64x128 : Shape := ⟨2, ![64, 128]⟩
abbrev S256x128 : Shape := ⟨2, ![256, 128]⟩
abbrev S256 : Shape := ⟨1, ![256]⟩
abbrev S128x128 : Shape := ⟨2, ![128, 128]⟩
abbrev S128x256 : Shape := ⟨2, ![128, 256]⟩
abbrev S256x256 : Shape := ⟨2, ![256, 256]⟩
abbrev S1x64 : Shape := ⟨2, ![1, 64]⟩
abbrev S_ : Shape := ⟨0, ![]⟩
abbrev S1x128 : Shape := ⟨2, ![1, 128]⟩
abbrev S1x256 : Shape := ⟨2, ![1, 256]⟩
abbrev S1x32 : Shape := ⟨2, ![1, 32]⟩

abbrev nBuf : Space → Nat
  | .hbm => 97
  | .vmem => 0
  | .smem => 0
  | _ => 0

abbrev bufTy : (tb : Table) → Fin (tcTables nBuf tb) → BufTy
  | .hbm, ⟨0, _⟩ => ⟨S524288x32, .f32⟩
  | .hbm, ⟨1, _⟩ => ⟨S524288x64, .f32⟩
  | .hbm, ⟨2, _⟩ => ⟨S524288x128, .f32⟩
  | .hbm, ⟨3, _⟩ => ⟨S524288x256, .f32⟩
  | .hbm, ⟨4, _⟩ => ⟨S64x32, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S256x128, .f32⟩
  | .hbm, ⟨15, _⟩ => ⟨S256, .f32⟩
  | .hbm, ⟨16, _⟩ => ⟨S128x128, .f32⟩
  | .hbm, ⟨17, _⟩ => ⟨S128, .f32⟩
  | .hbm, ⟨18, _⟩ => ⟨S128x256, .f32⟩
  | .hbm, ⟨19, _⟩ => ⟨S128, .f32⟩
  | .hbm, ⟨20, _⟩ => ⟨S256x256, .f32⟩
  | .hbm, ⟨21, _⟩ => ⟨S256, .f32⟩
  | .hbm, ⟨22, _⟩ => ⟨S64x64, .f32⟩
  | .hbm, ⟨23, _⟩ => ⟨S524288x64, .f32⟩
  | .hbm, ⟨24, _⟩ => ⟨S1x64, .f32⟩
  | .hbm, ⟨25, _⟩ => ⟨S524288x64, .f32⟩
  | .hbm, ⟨26, _⟩ => ⟨S524288x64, .f32⟩
  | .hbm, ⟨27, _⟩ => ⟨S128x64, .f32⟩
  | .hbm, ⟨28, _⟩ => ⟨S524288x64, .f32⟩
  | .hbm, ⟨29, _⟩ => ⟨S1x64, .f32⟩
  | .hbm, ⟨30, _⟩ => ⟨S524288x64, .f32⟩
  | .hbm, ⟨31, _⟩ => ⟨S524288x64, .f32⟩
  | .hbm, ⟨32, _⟩ => ⟨S524288x64, .f32⟩
  | .hbm, ⟨33, _⟩ => ⟨S32x64, .f32⟩
  | .hbm, ⟨34, _⟩ => ⟨S524288x64, .f32⟩
  | .hbm, ⟨35, _⟩ => ⟨S1x64, .f32⟩
  | .hbm, ⟨36, _⟩ => ⟨S524288x64, .f32⟩
  | .hbm, ⟨37, _⟩ => ⟨S524288x64, .f32⟩
  | .hbm, ⟨38, _⟩ => ⟨S524288x64, .f32⟩
  | .hbm, ⟨39, _⟩ => ⟨S_, .f32⟩
  | .hbm, ⟨40, _⟩ => ⟨S524288x64, .f32⟩
  | .hbm, ⟨41, _⟩ => ⟨S524288x64, .f32⟩
  | .hbm, ⟨42, _⟩ => ⟨S_, .f32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S524288x64, .f32⟩
  | .hbm, ⟨47, _⟩ => ⟨S128x128, .f32⟩
  | .hbm, ⟨48, _⟩ => ⟨S524288x128, .f32⟩
  | .hbm, ⟨49, _⟩ => ⟨S1x128, .f32⟩
  | .hbm, ⟨50, _⟩ => ⟨S524288x128, .f32⟩
  | .hbm, ⟨51, _⟩ => ⟨S524288x128, .f32⟩
  | .hbm, ⟨52, _⟩ => ⟨S256x128, .f32⟩
  | .hbm, ⟨53, _⟩ => ⟨S524288x128, .f32⟩
  | .hbm, ⟨54, _⟩ => ⟨S1x128, .f32⟩
  | .hbm, ⟨55, _⟩ => ⟨S524288x128, .f32⟩
  | .hbm, ⟨56, _⟩ => ⟨S524288x128, .f32⟩
  | .hbm, ⟨57, _⟩ => ⟨S524288x128, .f32⟩
  | .hbm, ⟨58, _⟩ => ⟨S64x128, .f32⟩
  | .hbm, ⟨59, _⟩ => ⟨S524288x128, .f32⟩
  | .hbm, ⟨60, _⟩ => ⟨S1x128, .f32⟩
  | .hbm, ⟨61, _⟩ => ⟨S524288x128, .f32⟩
  | .hbm, ⟨62, _⟩ => ⟨S524288x128, .f32⟩
  | .hbm, ⟨63, _⟩ => ⟨S524288x128, .f32⟩
  | .hbm, ⟨64, _⟩ => ⟨S_, .f32⟩
  | .hbm, ⟨65, _⟩ => ⟨S524288x128, .f32⟩
  | .hbm, ⟨66, _⟩ => ⟨S524288x128, .f32⟩
  | .hbm, ⟨67, _⟩ => ⟨S_, .f32⟩
  | .hbm, ⟨68, _⟩ => ⟨S524288x128, .f32⟩
  | .hbm, ⟨69, _⟩ => ⟨S524288x128, .f32⟩
  | .hbm, ⟨70, _⟩ => ⟨S524288x128, .f32⟩
  | .hbm, ⟨71, _⟩ => ⟨S524288x128, .f32⟩
  | .hbm, ⟨72, _⟩ => ⟨S256x256, .f32⟩
  | .hbm, ⟨73, _⟩ => ⟨S524288x256, .f32⟩
  | .hbm, ⟨74, _⟩ => ⟨S1x256, .f32⟩
  | .hbm, ⟨75, _⟩ => ⟨S524288x256, .f32⟩
  | .hbm, ⟨76, _⟩ => ⟨S524288x256, .f32⟩
  | .hbm, ⟨77, _⟩ => ⟨S128x256, .f32⟩
  | .hbm, ⟨78, _⟩ => ⟨S524288x256, .f32⟩
  | .hbm, ⟨79, _⟩ => ⟨S1x256, .f32⟩
  | .hbm, ⟨80, _⟩ => ⟨S524288x256, .f32⟩
  | .hbm, ⟨81, _⟩ => ⟨S524288x256, .f32⟩
  | .hbm, ⟨82, _⟩ => ⟨S524288x256, .f32⟩
  | .hbm, ⟨83, _⟩ => ⟨S_, .f32⟩
  | .hbm, ⟨84, _⟩ => ⟨S524288x256, .f32⟩
  | .hbm, ⟨85, _⟩ => ⟨S524288x256, .f32⟩
  | .hbm, ⟨86, _⟩ => ⟨S_, .f32⟩
  | .hbm, ⟨87, _⟩ => ⟨S524288x256, .f32⟩
  | .hbm, ⟨88, _⟩ => ⟨S524288x256, .f32⟩
  | .hbm, ⟨89, _⟩ => ⟨S524288x256, .f32⟩
  | .hbm, ⟨90, _⟩ => ⟨S524288x256, .f32⟩
  | .hbm, ⟨91, _⟩ => ⟨S64x32, .f32⟩
  | .hbm, ⟨92, _⟩ => ⟨S524288x32, .f32⟩
  | .hbm, ⟨93, _⟩ => ⟨S1x32, .f32⟩
  | .hbm, ⟨94, _⟩ => ⟨S524288x32, .f32⟩
  | .hbm, ⟨95, _⟩ => ⟨S524288x32, .f32⟩
  | .hbm, ⟨96, _⟩ => ⟨S524288x32, .f32⟩
  | _, _ => ⟨S524288x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_3 : Ref sig .tc := ⟨.hbm, 83, rfl⟩
abbrev main_v57 : Ref sig .tc := ⟨.hbm, 84, rfl⟩
abbrev main_v58 : Ref sig .tc := ⟨.hbm, 85, rfl⟩
abbrev main_cst_4 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  transposes_S64x128_S128x64_1_0 : S64x128.Transposes [1, 0] S128x64
  transposes_S64x32_S32x64_1_0 : S64x32.Transposes [1, 0] S32x64
  bcast_S_S524288x64 : S_.BroadcastsInDim S524288x64 (![] : Fin 0 → Fin S524288x64.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  transposes_S128x256_S256x128_1_0 : S128x256.Transposes [1, 0] S256x128
  transposes_S128x64_S64x128_1_0 : S128x64.Transposes [1, 0] S64x128
  bcast_S_S524288x128 : S_.BroadcastsInDim S524288x128 (![] : Fin 0 → Fin S524288x128.rank)
  transposes_S256x256_S256x256_1_0 : S256x256.Transposes [1, 0] S256x256
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  transposes_S256x128_S128x256_1_0 : S256x128.Transposes [1, 0] S128x256
  bcast_S_S524288x256 : S_.BroadcastsInDim S524288x256 (![] : Fin 0 → Fin S524288x256.rank)
  transposes_S32x64_S64x32_1_0 : S32x64.Transposes [1, 0] S64x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  dot_S524288x64_S64x64_S524288x64_1_0_0_1_n_n_wf : DotDims.WF S524288x64 S64x64 S524288x64 [1] [0] [0] [1] [] []
  dot_S524288x128_S128x64_S524288x64_1_0_0_1_n_n_wf : DotDims.WF S524288x128 S128x64 S524288x64 [1] [0] [0] [1] [] []
  dot_S524288x32_S32x64_S524288x64_1_0_0_1_n_n_wf : DotDims.WF S524288x32 S32x64 S524288x64 [1] [0] [0] [1] [] []
  dot_S524288x128_S128x128_S524288x128_1_0_0_1_n_n_wf : DotDims.WF S524288x128 S128x128 S524288x128 [1] [0] [0] [1] [] []
  dot_S524288x256_S256x128_S524288x128_1_0_0_1_n_n_wf : DotDims.WF S524288x256 S256x128 S524288x128 [1] [0] [0] [1] [] []
  dot_S524288x64_S64x128_S524288x128_1_0_0_1_n_n_wf : DotDims.WF S524288x64 S64x128 S524288x128 [1] [0] [0] [1] [] []
  dot_S524288x256_S256x256_S524288x256_1_0_0_1_n_n_wf : DotDims.WF S524288x256 S256x256 S524288x256 [1] [0] [0] [1] [] []
  dot_S524288x128_S128x256_S524288x256_1_0_0_1_n_n_wf : DotDims.WF S524288x128 S128x256 S524288x256 [1] [0] [0] [1] [] []
  dot_S524288x64_S64x32_S524288x32_1_0_0_1_n_n_wf : DotDims.WF S524288x64 S64x32 S524288x32 [1] [0] [0] [1] [] []

variable [Facts₀]

def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x32_S32x64_S524288x64_1_0_0_1_n_n : DotDims S524288x32 S32x64 S524288x64 where
  lhsContracting := [1]
  rhsContracting := [0]
  lhsNonContracting := [0]
  rhsNonContracting := [1]
  lhsBatch := []
  rhsBatch := []
  wf := dot_S524288x32_S32x64_S524288x64_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x128_S128x256_S524288x256_1_0_0_1_n_n : DotDims S524288x128 S128x256 S524288x256 where
  lhsContracting := [1]
  rhsContracting := [0]
  lhsNonContracting := [0]
  rhsNonContracting := [1]
  lhsBatch := []
  rhsBatch := []
  wf := dot_S524288x128_S128x256_S524288x256_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf

class Facts : Prop extends Facts₀ where

variable [Facts]
-- ==== Proof.CellSpec.lean ====
/- One step of the cell, row by row.  A batch row carries an input x (32 entries), a state s (64) and a second
   state c (128).  With W₁ (64×32), W₂ (64×64), W₃ (64×128) the three inner layers' weights, b their summed bias,
   Wₒ (32×64) and bₒ the output layer's, the row's hidden unit j and output o are

       h j = tanh ((∑ₖ x k · W₁ j k + ∑ₖ s k · W₂ j k + ∑ₖ c k · W₃ j k + b j) · ½ + ½ · s j)
       y o = tanh (∑ⱼ h j · Wₒ o j + bₒ o)

   on the extended reals.  Nothing couples two rows.  Two laws join the two programs' ways of writing the inner
   sum: addition on the extended reals is commutative and associative (so three layers that each carry a bias
   regroup into three products and one summed bias), and a quotient by 2 is the product with ½ at every extended
   real, the infinities included.  Neither asks for a finite operand. -/
import Idealize.ShloMosaic.PureOps.Ideal
import Idealize.ShloMosaic.PureOps.Ideal.Laws
import Idealize.ShloMosaic.Lib.ValueIdx

noncomputable section

open scoped BigOperators

namespace Cert.Cell

open Idealize.ShloMosaic Idealize.ShloMosaic.ValueIdx

/-- ½, as the f32 word both programs spell. -/
def half : EReal := Ideal.ofBits .f32 0x3F000000#32

/-- The word 0x3F000000 denotes the real ½. -/
theorem half_eq : half = ((1 / 2 : ℝ) : EReal) := by
  unfold half
  simp [Ideal.ofBits, Ideal.ieee, -EReal.coe_mul]; norm_num

/-- The word 0x40000000 denotes the real 2. -/
theorem ofBits_two : Ideal.ofBits .f32 0x40000000#32 = ((2 : ℝ) : EReal) := by
  simp [Ideal.ofBits, Ideal.ieee, -EReal.coe_mul]; norm_num

/-- A quotient by the word 2 is the product with the word ½, at every extended real. -/
theorem div_two (a : EReal) : Ideal.div a (Ideal.ofBits .f32 0x40000000#32) = a * half := by
  rw [ofBits_two, half_eq, Ideal.div_coe (by norm_num : (2 : ℝ) ≠ 0)]

/-- Three layers, each with its own bias, summed in the order (second + third) + first, are the three products
    summed first-second-third plus the biases summed: addition on the extended reals is a commutative monoid. -/
theorem regroup (X S C b₁ b₂ b₃ : EReal) :
    ((S + b₂) + (C + b₃)) + (X + b₁) = ((X + S) + C) + ((b₁ + b₂) + b₃) := by
  ac_rfl

/-- Hidden unit `j` of one row. -/
def hidden (x : Fin 32 → EReal) (s : Fin 64 → EReal) (c : Fin 128 → EReal)
    (W₁ : Fin 64 → Fin 32 → EReal) (W₂ : Fin 64 → Fin 64 → EReal) (W₃ : Fin 64 → Fin 128 → EReal)
    (b : Fin 64 → EReal) (j : Fin 64) : EReal :=
  Ideal.tanh ((((∑ k : Fin 32, x k * W₁ j k) + (∑ k : Fin 64, s k * W₂ j k)) + (∑ k : Fin 128, c k * W₃ j k) + b j) * half
    + half * s j)

/-- Output `o` of one row. -/
def row (x : Fin 32 → EReal) (s : Fin 64 → EReal) (c : Fin 128 → EReal)
    (W₁ : Fin 64 → Fin 32 → EReal) (W₂ : Fin 64 → Fin 64 → EReal) (W₃ : Fin 64 → Fin 128 → EReal)
    (b : Fin 64 → EReal) (Wₒ : Fin 32 → Fin 64 → EReal) (bₒ : Fin 32 → EReal) (o : Fin 32) : EReal :=
  Ideal.tanh ((∑ j : Fin 64, hidden x s c W₁ W₂ W₃ b j * Wₒ o j) + bₒ o)

/-- The whole result array as one function of the argument arrays: entry (p, o) is row p's output o, the three
    inner biases summed first-second-third. -/
def Y (x : (⟨2, ![524288, 32]⟩ : Shape).Idx → EReal) (s : (⟨2, ![524288, 64]⟩ : Shape).Idx → EReal)
    (c : (⟨2, ![524288, 128]⟩ : Shape).Idx → EReal)
    (w₁ : (⟨2, ![64, 32]⟩ : Shape).Idx → EReal) (b₁ : (⟨1, ![64]⟩ : Shape).Idx → EReal)
    (wₒ : (⟨2, ![32, 64]⟩ : Shape).Idx → EReal) (bₒ : (⟨1, ![32]⟩ : Shape).Idx → EReal)
    (w₂ : (⟨2, ![64, 64]⟩ : Shape).Idx → EReal) (b₂ : (⟨1, ![64]⟩ : Shape).Idx → EReal)
    (w₃ : (⟨2, ![64, 128]⟩ : Shape).Idx → EReal) (b₃ : (⟨1, ![64]⟩ : Shape).Idx → EReal) :
    (⟨2, ![524288, 32]⟩ : Shape).Idx → EReal := fun i =>
  row (fun k => x (ix2 (i 0 : Fin 524288) k)) (fun k => s (ix2 (i 0 : Fin 524288) k)) (fun k => c (ix2 (i 0 : Fin 524288) k))
    (fun j k => w₁ (ix2 j k)) (fun j k => w₂ (ix2 j k)) (fun j k => w₃ (ix2 j k))
    (fun j => (b₁ (ix1 j) + b₂ (ix1 j)) + b₃ (ix1 j))
    (fun o j => wₒ (ix2 o j)) (fun o => bₒ (ix1 o)) (i 1 : Fin 32)

end Cert.Cell

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.ChunkValue.lean ====
/- One 2048-row chunk of the cell, read at an index.

   The program states the same chunk arithmetic four times (its loop over chunks is written out), the four texts
   differing only in where the narrowing of the operands to bf16 is written.  Part 1 identifies the four texts with
   one of them, over any arithmetic.  Part 2 reads that one at an output index (p, o) on the extended reals, where a
   narrowing is the identity, a cast to the same shape is the identity, a bias row [n] → [1, n] → [2048, n] read at
   (p, q) is the bias at q, and a matrix product into the zero array at (p, q) is the sum over k of L[p, k] · R[k, q].
   Row p's hidden unit j is then

       tanh ((((∑ₖ x[p,k] · W₁[k,j] + ∑ₖ s[p,k] · W₂[k,j]) + ∑ₖ c[p,k] · W₃[k,j]) + b[j]) · ½ + ½ · s[p,j])

   and its output o is tanh (∑ⱼ h[p,j] · Wₒ[j,o] + bₒ[o]): the specification's row function, the weights being held
   transposed (entry (k, j) of the array is the specification's W j k).  The sums are in the specification's own
   order, so nothing is regrouped, and no operand is asked to be finite. -/
import proofs.«137589_j20521353740318_2_alg».proof.Proof.Gen.KernelIdeal.Skeleton
import proofs.«137589_j20521353740318_2_alg».proof.Proof.CellSpec
import proofs.«137589_j20521353740318_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.ChunkValue

open Cert.KernelIdeal Cert.KernelIdeal.Gen Idealize.ShloMosaic Idealize.ShloMosaic.ValueIdx

/-! ## Part 1: the four texts of the chunk arithmetic are one -/

section Generic

variable {F : FTy → Type} [FloatOps F]

/-- The third chunk's text is the second's, letter for letter. -/
theorem pay10_eq (v2 : FVec F S32x64 .bf16) (v5 : FVec F S64x64 .bf16) (v8 : FVec F S128x64 .bf16)
    (v11 : FVec F S64x32 .bf16) (v13 : FVec F S64 .f32) (v14 : Vec F S32 .f32)
    (xc : Vec F S2048x32 .f32) (sc : Vec F S2048x64 .f32) (cc : Vec F S2048x128 .f32) :
    k0_pay10 v2 v5 v8 v11 v13 v14 xc sc cc = k0_pay9 v2 v5 v8 v11 v13 v14 xc sc cc := rfl

/-- The last chunk's text takes its three operands already narrowed; narrowing them first gives the second's. -/
theorem pay1_eq (v2 : FVec F S32x64 .bf16) (v5 : FVec F S64x64 .bf16) (v8 : FVec F S128x64 .bf16)
    (v11 : FVec F S64x32 .bf16) (v13 : FVec F S64 .f32) (v14 : Vec F S32 .f32)
    (xc : Vec F S2048x32 .f32) (sc : Vec F S2048x64 .f32) (cc : Vec F S2048x128 .f32) :
    k0_pay1 v2 v5 v8 v11 v13 v14 (k0_pay11 xc) sc (k0_pay12 sc) (k0_pay13 cc)
      = k0_pay9 v2 v5 v8 v11 v13 v14 xc sc cc := rfl

/-- The first chunk's text is split in two (the inner layer's argument, then the rest) and takes the weights before
    their narrowing; put together it is the second's at the narrowed weights. -/
theorem pay8_eq (v0 : Vec F S32x64 .f32) (v3 : Vec F S64x64 .f32) (v6 : Vec F S128x64 .f32)
    (v9 : Vec F S64x32 .f32) (v12 : Vec F S64 .f32) (v14 : Vec F S32 .f32)
    (xc : Vec F S2048x32 .f32) (sc : Vec F S2048x64 .f32) (cc : Vec F S2048x128 .f32) :
    k0_pay8 (k0_pay5 v9) v14 (k0_pay7 v0 v3 v6 v12 xc sc cc)
      = k0_pay9 (k0_pay2 v0) (k0_pay3 v3) (k0_pay4 v6) (k0_pay5 v9) (k0_pay6 v12) v14 xc sc cc := rfl

end Generic

/-! ## Part 2: the chunk at an index, on the extended reals -/

/-- The four matrix products contract the left operand's second axis with the right operand's first. -/
theorem dot_x_eq : dot_S2048x32_S32x64_S2048x64_1_0_0_1_n_n = DotDims.plain 2048 32 64 := rfl
theorem dot_s_eq : dot_S2048x64_S64x64_S2048x64_1_0_0_1_n_n = DotDims.plain 2048 64 64 := rfl
theorem dot_c_eq : dot_S2048x128_S128x64_S2048x64_1_0_0_1_n_n = DotDims.plain 2048 128 64 := rfl
theorem dot_o_eq : dot_S2048x64_S64x32_S2048x32_1_0_0_1_n_n = DotDims.plain 2048 64 32 := rfl

/-- The input's product into the zero array, at (p, q): ∑ₖ L[p,k] · R[k,q]. -/
theorem matmul_x_apply (L : FVec Ideal S2048x32 .bf16) (R : FVec Ideal S32x64 .bf16) (p : Fin 2048) (q : Fin 64) :
    matmul dot_S2048x32_S32x64_S2048x64_1_0_0_1_n_n none L R (constant (F := Ideal) S2048x64 .f32 0x00000000#32) (ix2 p q)
      = ∑ k : Fin 32, L (ix2 p k) * R (ix2 k q) := by
  rw [dot_x_eq]; exact Cert.Bridge.LibMatmul.matmul_zero_apply none L R p q

/-- The state's product into the zero array, at (p, q). -/
theorem matmul_s_apply (L : FVec Ideal S2048x64 .bf16) (R : FVec Ideal S64x64 .bf16) (p : Fin 2048) (q : Fin 64) :
    matmul dot_S2048x64_S64x64_S2048x64_1_0_0_1_n_n none L R (constant (F := Ideal) S2048x64 .f32 0x00000000#32) (ix2 p q)
      = ∑ k : Fin 64, L (ix2 p k) * R (ix2 k q) := by
  rw [dot_s_eq]; exact Cert.Bridge.LibMatmul.matmul_zero_apply none L R p q

/-- The second state's product into the zero array, at (p, q). -/
theorem matmul_c_apply (L : FVec Ideal S2048x128 .bf16) (R : FVec Ideal S128x64 .bf16) (p : Fin 2048) (q : Fin 64) :
    matmul dot_S2048x128_S128x64_S2048x64_1_0_0_1_n_n none L R (constant (F := Ideal) S2048x64 .f32 0x00000000#32) (ix2 p q)
      = ∑ k : Fin 128, L (ix2 p k) * R (ix2 k q) := by
  rw [dot_c_eq]; exact Cert.Bridge.LibMatmul.matmul_zero_apply none L R p q

/-- The output layer's product into the zero array, at (p, q). -/
theorem matmul_o_apply (L : FVec Ideal S2048x64 .bf16) (R : FVec Ideal S64x32 .bf16) (p : Fin 2048) (q : Fin 32) :
    matmul dot_S2048x64_S64x32_S2048x32_1_0_0_1_n_n none L R (constant (F := Ideal) S2048x32 .f32 0x00000000#32) (ix2 p q)
      = ∑ k : Fin 64, L (ix2 p k) * R (ix2 k q) := by
  rw [dot_o_eq]; exact Cert.Bridge.LibMatmul.matmul_zero_apply none L R p q

/-- A hyperbolic tangent of an array, at an index, is the extended-real tangent of the element. -/
theorem tanh_apply {s : Shape} {φ : FTy} (a : FVec Ideal s φ) (i : s.Idx) : tanh a i = Ideal.tanh (a i) := rfl

/-- The word 0x3F000000 spread over an array is ½ at every index. -/
theorem half_apply {s : Shape} (i : s.Idx) :
    broadcast s (Scalar.ofBits (F := Ideal) .f32 0x3F000000#32) i = Cert.Cell.half := rfl

/-- A bias row [64] → [1, 64] → [2048, 64] read at (p, q) is the bias at q. -/
theorem bias64_apply (b : FVec Ideal S64 .f32) (h₁ : S64.ShapeCasts S1x64) (h₂ : S1x64.Broadcasts S2048x64)
    (p : Fin 2048) (q : Fin 64) : broadcastTo S2048x64 (shapeCast S1x64 b h₁) h₂ (ix2 p q) = b (ix1 q) :=
  (broadcastTo_1b_ab_apply (shapeCast S1x64 b h₁) h₂ p q).trans (shapeCast_a_1a_apply b h₁ 0 q)

/-- A bias row [32] → [1, 32] → [2048, 32] read at (p, q) is the bias at q. -/
theorem bias32_apply (b : FVec Ideal S32 .f32) (h₁ : S32.ShapeCasts S1x32) (h₂ : S1x32.Broadcasts S2048x32)
    (p : Fin 2048) (q : Fin 32) : broadcastTo S2048x32 (shapeCast S1x32 b h₁) h₂ (ix2 p q) = b (ix1 q) :=
  (broadcastTo_1b_ab_apply (shapeCast S1x32 b h₁) h₂ p q).trans (shapeCast_a_1a_apply b h₁ 0 q)

/-- A weight's payload (a cast to its own shape, then a narrowing) is the weight, at every index. -/
theorem pay2_apply (w : Vec Ideal S32x64 .f32) (i : S32x64.Idx) : k0_pay2 (F := Ideal) w i = w i :=
  congrFun (shapeCast_self w _) i
theorem pay3_apply (w : Vec Ideal S64x64 .f32) (i : S64x64.Idx) : k0_pay3 (F := Ideal) w i = w i :=
  congrFun (shapeCast_self w _) i
theorem pay4_apply (w : Vec Ideal S128x64 .f32) (i : S128x64.Idx) : k0_pay4 (F := Ideal) w i = w i :=
  congrFun (shapeCast_self w _) i
theorem pay5_apply (w : Vec Ideal S64x32 .f32) (i : S64x32.Idx) : k0_pay5 (F := Ideal) w i = w i :=
  congrFun (shapeCast_self w _) i
theorem pay6_apply (w : Vec Ideal S64 .f32) (i : S64.Idx) : k0_pay6 (F := Ideal) w i = w i :=
  congrFun (shapeCast_self w _) i

/-- The chunk's output at (p, o) is row p's output o. -/
theorem chunk_apply (w1 : Vec Ideal S32x64 .f32) (w2 : Vec Ideal S64x64 .f32) (w3 : Vec Ideal S128x64 .f32)
    (w4 : Vec Ideal S64x32 .f32) (bs : Vec Ideal S64 .f32) (bo : Vec Ideal S32 .f32)
    (xc : Vec Ideal S2048x32 .f32) (sc : Vec Ideal S2048x64 .f32) (cc : Vec Ideal S2048x128 .f32)
    (p : Fin 2048) (o : Fin 32) :
    k0_pay9 (F := Ideal) (k0_pay2 w1) (k0_pay3 w2) (k0_pay4 w3) (k0_pay5 w4) (k0_pay6 bs) bo xc sc cc (ix2 p o)
      = Cert.Cell.row (fun k => xc (ix2 p k)) (fun k => sc (ix2 p k)) (fun k => cc (ix2 p k))
          (fun j k => w1 (ix2 k j)) (fun j k => w2 (ix2 k j)) (fun j k => w3 (ix2 k j)) (fun j => bs (ix1 j))
          (fun o' j => w4 (ix2 j o')) (fun o' => bo (ix1 o')) o := by
  unfold k0_pay9 Cert.Cell.row Cert.Cell.hidden
  simp only [tanh_apply, addf_apply, mulf_apply, truncf_apply, half_apply, bias64_apply, bias32_apply,
    matmul_x_apply, matmul_s_apply, matmul_c_apply, matmul_o_apply,
    pay2_apply, pay3_apply, pay4_apply, pay5_apply, pay6_apply]

end Cert.KernelIdeal.ChunkValue

end
-- ==== Proof.BlockValue.lean ====
/- What one grid point leaves in the output's block, as one function of the point's input blocks.
   The body cuts the 8192-row block into four chunks of 2048 rows and stores each chunk's result in place; every
   chunk's result at local row p is the cell's row function of global row (offset + p) of the three input blocks,
   and the cell's rows do not see each other, so the four stored pieces are the four tiles of ONE function of the
   block index: row r, output o ↦ the cell's output o on row r. -/
import proofs.«137589_j20521353740318_2_alg».proof.Proof.Gen.KernelIdeal.Frame
import proofs.«137589_j20521353740318_2_alg».proof.Proof.ChunkValue
import proofs.«137589_j20521353740318_2_alg».proof.Proof.CellSpec
import Idealize.ShloMosaic.Lib.Pipeline.Value
import Idealize.ShloMosaic.Lib.ValueIdx
import Idealize.ShloMosaic.Lib.Tactic

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- Row r, output o of the block: the cell's row function of row r of the three input blocks, the weights held
    transposed (entry (k, j) of a held weight is the cell's W j k). -/
def rowOut (x0 : Vec Ideal S8192x32 .f32) (x1 : Vec Ideal S8192x64 .f32) (x2 : Vec Ideal S8192x128 .f32) (x3 : Vec Ideal S32x64 .f32) (x4 : Vec Ideal S64x64 .f32) (x5 : Vec Ideal S128x64 .f32) (x6 : Vec Ideal S64x32 .f32) (x7 : Vec Ideal S64 .f32) (x8 : Vec Ideal S32 .f32) (r : Fin 8192) (o : Fin 32) : EReal :=
  Cert.Cell.row (fun k => x0 (ix2 r k)) (fun k => x1 (ix2 r k)) (fun k => x2 (ix2 r k))
    (fun j k => x3 (ix2 k j)) (fun j k => x4 (ix2 k j)) (fun j k => x5 (ix2 k j)) (fun j => x7 (ix1 j))
    (fun o' j => x6 (ix2 j o')) (fun o' => x8 (ix1 o')) o

/-- The block as one function of its index. -/
def G (x0 : Vec Ideal S8192x32 .f32) (x1 : Vec Ideal S8192x64 .f32) (x2 : Vec Ideal S8192x128 .f32) (x3 : Vec Ideal S32x64 .f32) (x4 : Vec Ideal S64x64 .f32) (x5 : Vec Ideal S128x64 .f32) (x6 : Vec Ideal S64x32 .f32) (x7 : Vec Ideal S64 .f32) (x8 : Vec Ideal S32 .f32) : S8192x32.Idx → EReal :=
  fun y => rowOut x0 x1 x2 x3 x4 x5 x6 x7 x8 (y 0 : Fin 8192) (y 1 : Fin 32)

/-- A chunk stored at row offset `off`: its result at local (p, o) is the block function at (off + p, o). -/
theorem piece_at (off : Nat) (hoff : off + 2048 ≤ 8192)
    (inb0 : ∀ a, (![off, 0] : Fin 2 → Nat) a + (![2048, 32] : Fin 2 → Nat) a ≤ S8192x32.size a)
    (inb1 : ∀ a, (![off, 0] : Fin 2 → Nat) a + (![2048, 64] : Fin 2 → Nat) a ≤ S8192x64.size a)
    (inb2 : ∀ a, (![off, 0] : Fin 2 → Nat) a + (![2048, 128] : Fin 2 → Nat) a ≤ S8192x128.size a)
    (x0 : Vec Ideal S8192x32 .f32) (x1 : Vec Ideal S8192x64 .f32) (x2 : Vec Ideal S8192x128 .f32) (x3 : Vec Ideal S32x64 .f32) (x4 : Vec Ideal S64x64 .f32) (x5 : Vec Ideal S128x64 .f32) (x6 : Vec Ideal S64x32 .f32) (x7 : Vec Ideal S64 .f32) (x8 : Vec Ideal S32 .f32) (x : (Rect.unit (s := S8192x32) ![off, 0] ![2048, 32] inb0).shape.Idx) :
    k0_pay9 (F := Ideal) (k0_pay2 x3) (k0_pay3 x4) (k0_pay4 x5) (k0_pay5 x6) (k0_pay6 x7) x8
        (View.ld x0 (Rect.unit (s := S8192x32) ![off, 0] ![2048, 32] inb0))
        (View.ld x1 (Rect.unit (s := S8192x64) ![off, 0] ![2048, 64] inb1))
        (View.ld x2 (Rect.unit (s := S8192x128) ![off, 0] ![2048, 128] inb2)) x
      = G x0 x1 x2 x3 x4 x5 x6 x7 x8 ((Rect.unit (s := S8192x32) ![off, 0] ![2048, 32] inb0).emb x) := by
  obtain ⟨p, o, rfl⟩ : ∃ (p : Fin 2048) (o : Fin 32), x = ix2 p o := ⟨x 0, x 1, eq_ix2 x⟩
  rw [Cert.KernelIdeal.ChunkValue.chunk_apply]
  have hr : ((Rect.unit (s := S8192x32) ![off, 0] ![2048, 32] inb0).emb (ix2 p o)) 0
      = (⟨off + p.val, by have := p.isLt; omega⟩ : Fin 8192) := Fin.ext (by show off + 1 * p.val = off + p.val; omega)
  have ho : ((Rect.unit (s := S8192x32) ![off, 0] ![2048, 32] inb0).emb (ix2 p o)) 1 = o :=
    Fin.ext (by show 0 + 1 * o.val = o.val; omega)
  show _ = rowOut x0 x1 x2 x3 x4 x5 x6 x7 x8 (((Rect.unit (s := S8192x32) ![off, 0] ![2048, 32] inb0).emb (ix2 p o)) 0)
      (((Rect.unit (s := S8192x32) ![off, 0] ![2048, 32] inb0).emb (ix2 p o)) 1)
  rw [hr, ho]
  unfold rowOut
  have f0 : (fun k : Fin 32 => View.ld x0 (Rect.unit (s := S8192x32) ![off, 0] ![2048, 32] inb0) (ix2 p k))
      = fun k => x0 (ix2 (⟨off + p.val, by have := p.isLt; omega⟩ : Fin 8192) k) :=
    funext fun k => congrArg x0 (funext fun a => Fin.ext (by
      match a with
      | ⟨0, _⟩ => show off + 1 * p.val = off + p.val; omega
      | ⟨1, _⟩ => show 0 + 1 * k.val = k.val; omega))
  have f1 : (fun k : Fin 64 => View.ld x1 (Rect.unit (s := S8192x64) ![off, 0] ![2048, 64] inb1) (ix2 p k))
      = fun k => x1 (ix2 (⟨off + p.val, by have := p.isLt; omega⟩ : Fin 8192) k) :=
    funext fun k => congrArg x1 (funext fun a => Fin.ext (by
      match a with
      | ⟨0, _⟩ => show off + 1 * p.val = off + p.val; omega
      | ⟨1, _⟩ => show 0 + 1 * k.val = k.val; omega))
  have f2 : (fun k : Fin 128 => View.ld x2 (Rect.unit (s := S8192x128) ![off, 0] ![2048, 128] inb2) (ix2 p k))
      = fun k => x2 (ix2 (⟨off + p.val, by have := p.isLt; omega⟩ : Fin 8192) k) :=
    funext fun k => congrArg x2 (funext fun a => Fin.ext (by
      match a with
      | ⟨0, _⟩ => show off + 1 * p.val = off + p.val; omega
      | ⟨1, _⟩ => show 0 + 1 * k.val = k.val; omega))
  rw [f0, f1, f2]

/-- What the body leaves in the output's block is the block function of the point's input blocks: the four stored
    chunks are its four tiles. -/
theorem block_eq (c : Dev nD) (i : grid0.Coords) (arg1 : Memref sig .tc .vmem S8192x32 .f32) (harg1 : arg1.IsWhole) (arg2 : Memref sig .tc .vmem S8192x64 .f32) (harg2 : arg2.IsWhole) (arg3 : Memref sig .tc .vmem S8192x128 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S128x64 .f32) (harg6 : arg6.IsWhole) (arg7 : Memref sig .tc .vmem S64x32 .f32) (harg7 : arg7.IsWhole) (arg8 : Memref sig .tc .vmem S64 .f32) (harg8 : arg8.IsWhole) (arg9 : Memref sig .tc .vmem S32 .f32) (harg9 : arg9.IsWhole) (arg10 : Memref sig .tc .vmem S8192x32 .f32) (harg10 : arg10.IsWhole)
    (x0 : Vec Ideal S8192x32 .f32) (x1 : Vec Ideal S8192x64 .f32) (x2 : Vec Ideal S8192x128 .f32) (x3 : Vec Ideal S32x64 .f32) (x4 : Vec Ideal S64x64 .f32) (x5 : Vec Ideal S128x64 .f32) (x6 : Vec Ideal S64x32 .f32) (x7 : Vec Ideal S64 .f32) (x8 : Vec Ideal S32 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = G x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (G x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S32x64) hz2, View.ld_unit_zero (S := S64x64) hz2, View.ld_unit_zero (S := S128x64) hz2,
    View.ld_unit_zero (S := S64x32) hz2, View.ld_unit_zero (S := S64) hz1, View.ld_unit_zero (S := S32) hz1]
  intro p hp
  rcases List.mem_cons.mp hp with rfl | hp
  · intro x
    show k0_pay1 _ _ _ _ _ _ _ _ _ _ x = _
    rw [Cert.KernelIdeal.ChunkValue.pay1_eq]
    exact piece_at 6144 (by omega) _ _ _ x0 x1 x2 x3 x4 x5 x6 x7 x8 x
  rcases List.mem_cons.mp hp with rfl | hp
  · intro x
    show k0_pay10 _ _ _ _ _ _ _ _ _ x = _
    rw [Cert.KernelIdeal.ChunkValue.pay10_eq]
    exact piece_at 4096 (by omega) _ _ _ x0 x1 x2 x3 x4 x5 x6 x7 x8 x
  rcases List.mem_cons.mp hp with rfl | hp
  · intro x
    exact piece_at 2048 (by omega) _ _ _ x0 x1 x2 x3 x4 x5 x6 x7 x8 x
  rcases List.mem_cons.mp hp with rfl | hp
  · intro x
    show k0_pay8 _ _ _ x = _
    rw [Cert.KernelIdeal.ChunkValue.pay8_eq]
    exact piece_at 0 (by omega) _ _ _ x0 x1 x2 x3 x4 x5 x6 x7 x8 x
  exact absurd hp List.not_mem_nil

end Cert.KernelIdeal.BlockValue

end
-- ==== Proof.HostSide.lean ====
/- What the launch finds in the arrays the host wrote before it: each weight matrix transposed (the kernel
   multiplies rows by Wᵀ), and the three inner biases summed into one row, first + second, then + third. -/
import proofs.«137589_j20521353740318_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first inner layer's weight as the kernel holds it: entry (k, j) is W₁ j k. -/
theorem w1_apply (c : Dev nD) (k : Fin 32) (j : Fin 64) :
    (V m c main_v0 : S32x64.Idx → EReal) (ix2 k j) = m ((c : Thread nD τ).loc main_arg4) (ix2 j k) := by
  have e : (V m c main_v0 : S32x64.Idx → EReal)
      = transpose S32x64 [1, 0] (m ((c : Thread nD τ).loc main_arg4)) transposes_S64x32_S32x64_1_0 := by
    dsimp only [Gen.V, Gen.hostOps0]; after_results
  rw [e]
  exact transpose_apply [1, 0] _ transposes_S64x32_S32x64_1_0 (ix2 k j) (ix2 j k) (fun b => match b with
    | ⟨0, _⟩ => rfl
    | ⟨1, _⟩ => rfl)

/-- The second inner layer's weight as the kernel holds it: entry (k, j) is W₂ j k. -/
theorem w2_apply (c : Dev nD) (k : Fin 64) (j : Fin 64) :
    (V m c main_v1 : S64x64.Idx → EReal) (ix2 k j) = m ((c : Thread nD τ).loc main_arg8) (ix2 j k) := by
  have e : (V m c main_v1 : S64x64.Idx → EReal)
      = transpose S64x64 [1, 0] (m ((c : Thread nD τ).loc main_arg8)) transposes_S64x64_S64x64_1_0 := by
    dsimp only [Gen.V, Gen.hostOps0]; after_results
  rw [e]
  exact transpose_apply [1, 0] _ transposes_S64x64_S64x64_1_0 (ix2 k j) (ix2 j k) (fun b => match b with
    | ⟨0, _⟩ => rfl
    | ⟨1, _⟩ => rfl)

/-- The third inner layer's weight as the kernel holds it: entry (k, j) is W₃ j k. -/
theorem w3_apply (c : Dev nD) (k : Fin 128) (j : Fin 64) :
    (V m c main_v2 : S128x64.Idx → EReal) (ix2 k j) = m ((c : Thread nD τ).loc main_arg12) (ix2 j k) := by
  have e : (V m c main_v2 : S128x64.Idx → EReal)
      = transpose S128x64 [1, 0] (m ((c : Thread nD τ).loc main_arg12)) transposes_S64x128_S128x64_1_0 := by
    dsimp only [Gen.V, Gen.hostOps0]; after_results
  rw [e]
  exact transpose_apply [1, 0] _ transposes_S64x128_S128x64_1_0 (ix2 k j) (ix2 j k) (fun b => match b with
    | ⟨0, _⟩ => rfl
    | ⟨1, _⟩ => rfl)

/-- The output layer's weight as the kernel holds it: entry (j, o) is Wₒ o j. -/
theorem wo_apply (c : Dev nD) (j : Fin 64) (o : Fin 32) :
    (V m c main_v3 : S64x32.Idx → EReal) (ix2 j o) = m ((c : Thread nD τ).loc main_arg6) (ix2 o j) := by
  have e : (V m c main_v3 : S64x32.Idx → EReal)
      = transpose S64x32 [1, 0] (m ((c : Thread nD τ).loc main_arg6)) transposes_S32x64_S64x32_1_0 := by
    dsimp only [Gen.V, Gen.hostOps0]; after_results
  rw [e]
  exact transpose_apply [1, 0] _ transposes_S32x64_S64x32_1_0 (ix2 j o) (ix2 o j) (fun b => match b with
    | ⟨0, _⟩ => rfl
    | ⟨1, _⟩ => rfl)

/-- The summed bias row: (b₁ + b₂) + b₃, entry by entry (the three rows named so that the sums are read on the
    extended reals). -/
theorem bsum_apply (c : Dev nD) (j : Fin 64) (b₁ b₂ b₃ : S64.Idx → EReal)
    (h₁ : b₁ = m ((c : Thread nD τ).loc main_arg5)) (h₂ : b₂ = m ((c : Thread nD τ).loc main_arg9))
    (h₃ : b₃ = m ((c : Thread nD τ).loc main_arg13)) :
    (V m c main_v5 : S64.Idx → EReal) (ix1 j) = (b₁ (ix1 j) + b₂ (ix1 j)) + b₃ (ix1 j) := by
  have e : (V m c main_v5 : S64.Idx → EReal)
      = (addf (addf (b₁ : FVec Ideal S64 .f32) (b₂ : FVec Ideal S64 .f32)) (b₃ : FVec Ideal S64 .f32) : FVec Ideal S64 .f32) := by
    rw [h₁, h₂, h₃]; dsimp only [Gen.V, Gen.hostOps0]; after_results
  rw [e]; rfl

end Cert.KernelIdeal.HostSide

end
-- ==== Proof.ArrayValue.lean ====
/- The result array after the run, as one function of the argument arrays.
   Grid point t holds rows t·8192 … t·8192 + 8191 of the batch: its three streamed input blocks are those rows of
   x, s and c, its resident blocks are the four transposed weights, the summed bias and the output bias whole, and
   what it writes back is those rows of the result.  So what point t writes back is block t of the cell's output
   array; the 64 blocks tile the 524288 rows (row i lies in block i / 8192), and the array ends holding the cell's
   output at every index. -/
import proofs.«137589_j20521353740318_2_alg».proof.Proof.Gen.KernelIdeal.Value
import proofs.«137589_j20521353740318_2_alg».proof.Proof.BlockValue
import proofs.«137589_j20521353740318_2_alg».proof.Proof.HostSide
import proofs.«137589_j20521353740318_2_alg».proof.Proof.CellSpec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The cell's output array of the argument arrays as launched. -/
def result (c : Dev nD) : Buf (Elt Ideal) ((c : Thread nD τ).loc main_v6) :=
  Cert.Cell.Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))

/-- The printed index maps over the 64 grid points: the three streamed inputs and the output move with the point
    along the rows, the resident operands stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

/-- What point t writes back is block t of the cell's output array. -/
theorem flushed_eq (c : Dev nD) (t : Fin cfg0.N) :
    (dats m 0 c).flushed 9 t = ((cfg0.win 9).blk t).view.read (Elt Ideal) (result m c) := by
  rw [Cert.KernelIdeal.Value.flushed9_A, Cert.KernelIdeal.BlockValue.block_eq]
  obtain ⟨a00, a01, a10, a11, a20, a21, a30, a31, a40, a41, a50, a51, a60, a61, a70, a80, a90, a91⟩ := idx_facts t
  refine funext fun (y : S8192x32.Idx) => ?_
  obtain ⟨r, o, rfl⟩ : ∃ (r : Fin 8192) (o : Fin 32), y = ix2 r o := ⟨y 0, y 1, eq_ix2 y⟩
  have hrow : (t.val * 8192 + r.val) < 524288 := by
    have := t.isLt; have hN : cfg0.N = 64 := N_0; have := r.isLt; omega
  -- the array index the output block's (r, o) names
  have hE0 : (((cfg0.win 9).blk t).view.emb (ix2 r o)) 0 = (⟨t.val * 8192 + r.val, hrow⟩ : Fin 524288) :=
    Fin.ext (by show win0_9.index t (0 : Fin 2) * 8192 + 1 * r.val = t.val * 8192 + r.val; omega)
  have hE1 : (((cfg0.win 9).blk t).view.emb (ix2 r o)) 1 = o :=
    Fin.ext (by show win0_9.index t (1 : Fin 2) * 32 + 1 * o.val = o.val; omega)
  show Cert.KernelIdeal.BlockValue.rowOut (iblk m c 0 t) (iblk m c 1 t) (iblk m c 2 t) (iblk m c 3 t) (iblk m c 4 t)
      (iblk m c 5 t) (iblk m c 6 t) (iblk m c 7 t) (iblk m c 8 t) r o
    = Cert.Cell.Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))
        (((cfg0.win 9).blk t).view.emb (ix2 r o))
  unfold Cert.KernelIdeal.BlockValue.rowOut Cert.Cell.Y
  rw [hE0, hE1]
  -- the three streamed blocks are rows t·8192 + r of the arguments
  have g0 : (fun k : Fin 32 => iblk m c 0 t (ix2 r k))
      = fun k => (m ((c : Thread nD τ).loc main_arg0)) (ix2 (⟨t.val * 8192 + r.val, hrow⟩ : Fin 524288) k) := funext fun k => by
    show V m c main_arg0 (((cfg0.win 0).blk t).view.emb (ix2 r k)) = _
    rw [V_main_arg0]
    exact congrArg _ (funext fun a => Fin.ext (by
      match a with
      | ⟨0, _⟩ => show win0_0.index t (0 : Fin 2) * 8192 + 1 * r.val = t.val * 8192 + r.val; omega
      | ⟨1, _⟩ => show win0_0.index t (1 : Fin 2) * 32 + 1 * k.val = k.val; omega))
  have g1 : (fun k : Fin 64 => iblk m c 1 t (ix2 r k))
      = fun k => (m ((c : Thread nD τ).loc main_arg1)) (ix2 (⟨t.val * 8192 + r.val, hrow⟩ : Fin 524288) k) := funext fun k => by
    show V m c main_arg1 (((cfg0.win 1).blk t).view.emb (ix2 r k)) = _
    rw [V_main_arg1]
    exact congrArg _ (funext fun a => Fin.ext (by
      match a with
      | ⟨0, _⟩ => show win0_1.index t (0 : Fin 2) * 8192 + 1 * r.val = t.val * 8192 + r.val; omega
      | ⟨1, _⟩ => show win0_1.index t (1 : Fin 2) * 64 + 1 * k.val = k.val; omega))
  have g2 : (fun k : Fin 128 => iblk m c 2 t (ix2 r k))
      = fun k => (m ((c : Thread nD τ).loc main_arg2)) (ix2 (⟨t.val * 8192 + r.val, hrow⟩ : Fin 524288) k) := funext fun k => by
    show V m c main_arg2 (((cfg0.win 2).blk t).view.emb (ix2 r k)) = _
    rw [V_main_arg2]
    exact congrArg _ (funext fun a => Fin.ext (by
      match a with
      | ⟨0, _⟩ => show win0_2.index t (0 : Fin 2) * 8192 + 1 * r.val = t.val * 8192 + r.val; omega
      | ⟨1, _⟩ => show win0_2.index t (1 : Fin 2) * 128 + 1 * k.val = k.val; omega))
  -- the resident blocks are the host-written arrays whole
  have g3 : (fun (j : Fin 64) (k : Fin 32) => iblk m c 3 t (ix2 k j)) = fun j k => (m ((c : Thread nD τ).loc main_arg4)) (ix2 j k) :=
    funext fun j => funext fun k => by
      show V m c main_v0 (((cfg0.win 3).blk t).view.emb (ix2 k j)) = _
      have he : ((cfg0.win 3).blk t).view.emb (ix2 k j) = ix2 k j := funext fun a => Fin.ext (by
        match a with
        | ⟨0, _⟩ => show win0_3.index t (0 : Fin 2) * 32 + 1 * k.val = k.val; omega
        | ⟨1, _⟩ => show win0_3.index t (1 : Fin 2) * 64 + 1 * j.val = j.val; omega)
      rw [he]; exact Cert.KernelIdeal.HostSide.w1_apply m c k j
  have g4 : (fun (j : Fin 64) (k : Fin 64) => iblk m c 4 t (ix2 k j)) = fun j k => (m ((c : Thread nD τ).loc main_arg8)) (ix2 j k) :=
    funext fun j => funext fun k => by
      show V m c main_v1 (((cfg0.win 4).blk t).view.emb (ix2 k j)) = _
      have he : ((cfg0.win 4).blk t).view.emb (ix2 k j) = ix2 k j := funext fun a => Fin.ext (by
        match a with
        | ⟨0, _⟩ => show win0_4.index t (0 : Fin 2) * 64 + 1 * k.val = k.val; omega
        | ⟨1, _⟩ => show win0_4.index t (1 : Fin 2) * 64 + 1 * j.val = j.val; omega)
      rw [he]; exact Cert.KernelIdeal.HostSide.w2_apply m c k j
  have g5 : (fun (j : Fin 64) (k : Fin 128) => iblk m c 5 t (ix2 k j)) = fun j k => (m ((c : Thread nD τ).loc main_arg12)) (ix2 j k) :=
    funext fun j => funext fun k => by
      show V m c main_v2 (((cfg0.win 5).blk t).view.emb (ix2 k j)) = _
      have he : ((cfg0.win 5).blk t).view.emb (ix2 k j) = ix2 k j := funext fun a => Fin.ext (by
        match a with
        | ⟨0, _⟩ => show win0_5.index t (0 : Fin 2) * 128 + 1 * k.val = k.val; omega
        | ⟨1, _⟩ => show win0_5.index t (1 : Fin 2) * 64 + 1 * j.val = j.val; omega)
      rw [he]; exact Cert.KernelIdeal.HostSide.w3_apply m c k j
  have g6 : (fun (o' : Fin 32) (j : Fin 64) => iblk m c 6 t (ix2 j o')) = fun o' j => (m ((c : Thread nD τ).loc main_arg6)) (ix2 o' j) :=
    funext fun o' => funext fun j => by
      show V m c main_v3 (((cfg0.win 6).blk t).view.emb (ix2 j o')) = _
      have he : ((cfg0.win 6).blk t).view.emb (ix2 j o') = ix2 j o' := funext fun a => Fin.ext (by
        match a with
        | ⟨0, _⟩ => show win0_6.index t (0 : Fin 2) * 64 + 1 * j.val = j.val; omega
        | ⟨1, _⟩ => show win0_6.index t (1 : Fin 2) * 32 + 1 * o'.val = o'.val; omega)
      rw [he]; exact Cert.KernelIdeal.HostSide.wo_apply m c j o'
  have g7 : ∀ (b₁ b₂ b₃ : S64.Idx → EReal), b₁ = m ((c : Thread nD τ).loc main_arg5) → b₂ = m ((c : Thread nD τ).loc main_arg9)
      → b₃ = m ((c : Thread nD τ).loc main_arg13)
      → (fun j : Fin 64 => iblk m c 7 t (ix1 j)) = fun j => (b₁ (ix1 j) + b₂ (ix1 j)) + b₃ (ix1 j) := by
    intro b₁ b₂ b₃ h₁ h₂ h₃
    funext j
    show V m c main_v5 (((cfg0.win 7).blk t).view.emb (ix1 j)) = _
    have he : ((cfg0.win 7).blk t).view.emb (ix1 j) = ix1 j := funext fun a => Fin.ext (by
      match a with
      | ⟨0, _⟩ => show win0_7.index t (0 : Fin 1) * 64 + 1 * j.val = j.val; omega)
    rw [he]; exact Cert.KernelIdeal.HostSide.bsum_apply m c j b₁ b₂ b₃ h₁ h₂ h₃
  have g8 : (fun o' : Fin 32 => iblk m c 8 t (ix1 o')) = fun o' => (m ((c : Thread nD τ).loc main_arg7)) (ix1 o') := funext fun o' => by
    show V m c main_arg7 (((cfg0.win 8).blk t).view.emb (ix1 o')) = _
    rw [V_main_arg7]
    exact congrArg _ (funext fun a => Fin.ext (by
      match a with
      | ⟨0, _⟩ => show win0_8.index t (0 : Fin 1) * 32 + 1 * o'.val = o'.val; omega))
  rw [g0, g1, g2, g3, g4, g5, g6, g7 _ _ _ rfl rfl rfl, g8]

/-- An index of the array is in point t's block iff each coordinate is in the block's range on its axis. -/
theorem mem_blk (t : Fin cfg0.N) (i : S524288x32.Idx) :
    i ∈ ((cfg0.win 9).blk t).view.set ↔ ∀ a : Fin 2, win0_9.index t a * S8192x32.size a ≤ (i a).val
      ∧ (i a).val < win0_9.index t a * S8192x32.size a + S8192x32.size a := by
  show i ∈ ((View.whole main_v6).slice (win0_9.rect t)).set ↔ _
  rw [View.set_slice_whole, Rect.mem_set_unit]
  exact Iff.rfl

/-- The 64 blocks tile the array: the array ends holding the cell's output. -/
theorem final (c : Dev nD) : (dats m 0 c).arrAt 9 cfg0.N = result m c :=
  (dats m 0 c).arrAt_eq_of_cover 9 (result m c) (fun t _ => flushed_eq m c t) fun i => by
    have hi0 : (i 0).val < 524288 := (i 0).isLt
    have hi1 : (i 1).val < 32 := (i 1).isLt
    have ht : (i 0).val / 8192 < cfg0.N := Nat.lt_of_lt_of_eq (by omega : (i 0).val / 8192 < 64) N_0.symm
    obtain ⟨t0, ht0⟩ : ∃ t0 : Fin cfg0.N, t0.val = (i 0).val / 8192 := ⟨⟨_, ht⟩, rfl⟩
    refine ⟨t0, flush0_9 t0, ?_⟩
    rw [mem_blk]
    obtain ⟨-, -, -, -, -, -, -, -, -, -, -, -, -, -, -, -, a90, a91⟩ := idx_facts t0
    intro a
    match a with
    | ⟨0, _⟩ =>
      show win0_9.index t0 (0 : Fin 2) * 8192 ≤ (i 0).val ∧ (i 0).val < win0_9.index t0 (0 : Fin 2) * 8192 + 8192
      omega
    | ⟨1, _⟩ =>
      show win0_9.index t0 (1 : Fin 2) * 32 ≤ (i 1).val ∧ (i 1).val < win0_9.index t0 (1 : Fin 2) * 32 + 32
      omega

/-- The run, read: the result array at the cell's output, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final m c), (h c).2⟩) (Cert.KernelIdeal.Value.run_blocks m ρ)

end Cert.KernelIdeal.ArrayValue

end
-- ==== Proof.RefIsCell.lean ====
/- The reference program, read one operation at a time, is the specification.  At the entry (p, o) of the result
   the program computes tanh (∑ⱼ h j · Wₒᵀ j o + bₒ o) with
       h j = tanh (((S j + b₂ j) + (C j + b₃ j) + (X j + b₁ j)) / 2 + ½ · s j),
   X, S, C the three inner layers' products of row p with the transposed weights.  A transposed weight read at (k, j)
   is the weight at (j, k); a bias broadcast over the rows read at (p, j) is the bias at j.  The quotient by 2 is the
   product with ½ and the three biased layers regroup into three products plus one summed bias: the specification's
   hidden unit.  Nothing asks for a finite operand. -/
import proofs.«137589_j20521353740318_2_alg».proof.Proof.Gen.ReferenceIdeal.Read
import proofs.«137589_j20521353740318_2_alg».proof.Proof.CellSpec

noncomputable section

open scoped BigOperators

namespace Cert.RefCell

open Idealize.ShloMosaic Idealize.ShloMosaic.ValueIdx Cert.ReferenceIdeal Cert.ReferenceIdeal.Read

/-- The state layer's product: row p of the state against row j of the 64×64 weight. -/
theorem dot_state (x1 : (⟨S524288x64, .f32⟩ : BufTy).Contents (Elt Ideal)) (x8 : (⟨S64x64, .f32⟩ : BufTy).Contents (Elt Ideal))
    (p : Fin 524288) (j : Fin 64) :
    val_main_v1 (F := Ideal) x1 x8 (ix2 p j) = ∑ k : Fin 64, x1 (ix2 p k) * x8 (ix2 j k) := by
  rw [val_main_v1_apply]
  refine Finset.sum_congr rfl fun k _ => ?_
  rw [val_main_v0_apply]
  have e1 : lidx_main_v1 (ix2 p j) k = ix2 p k := funext fun a => Fin.ext (by match a with | ⟨0, _⟩ => rfl | ⟨1, _⟩ => rfl)
  have e2 : idx_main_v0 (ridx_main_v1 (ix2 p j) k) = ix2 j k := funext fun a => Fin.ext (by match a with | ⟨0, _⟩ => rfl | ⟨1, _⟩ => rfl)
  rw [e1, e2]

/-- The second state's layer: row p of the 128-wide state against row j of the 64×128 weight. -/
theorem dot_second (x2 : (⟨S524288x128, .f32⟩ : BufTy).Contents (Elt Ideal)) (x12 : (⟨S64x128, .f32⟩ : BufTy).Contents (Elt Ideal))
    (p : Fin 524288) (j : Fin 64) :
    val_main_v6 (F := Ideal) x2 x12 (ix2 p j) = ∑ k : Fin 128, x2 (ix2 p k) * x12 (ix2 j k) := by
  rw [val_main_v6_apply]
  refine Finset.sum_congr rfl fun k _ => ?_
  rw [val_main_v5_apply]
  have e1 : lidx_main_v6 (ix2 p j) k = ix2 p k := funext fun a => Fin.ext (by match a with | ⟨0, _⟩ => rfl | ⟨1, _⟩ => rfl)
  have e2 : idx_main_v5 (ridx_main_v6 (ix2 p j) k) = ix2 j k := funext fun a => Fin.ext (by match a with | ⟨0, _⟩ => rfl | ⟨1, _⟩ => rfl)
  rw [e1, e2]

/-- The input layer: row p of the input against row j of the 64×32 weight. -/
theorem dot_input (x0 : (⟨S524288x32, .f32⟩ : BufTy).Contents (Elt Ideal)) (x4 : (⟨S64x32, .f32⟩ : BufTy).Contents (Elt Ideal))
    (p : Fin 524288) (j : Fin 64) :
    val_main_v12 (F := Ideal) x0 x4 (ix2 p j) = ∑ k : Fin 32, x0 (ix2 p k) * x4 (ix2 j k) := by
  rw [val_main_v12_apply]
  refine Finset.sum_congr rfl fun k _ => ?_
  rw [val_main_v11_apply]
  have e1 : lidx_main_v12 (ix2 p j) k = ix2 p k := funext fun a => Fin.ext (by match a with | ⟨0, _⟩ => rfl | ⟨1, _⟩ => rfl)
  have e2 : idx_main_v11 (ridx_main_v12 (ix2 p j) k) = ix2 j k := funext fun a => Fin.ext (by match a with | ⟨0, _⟩ => rfl | ⟨1, _⟩ => rfl)
  rw [e1, e2]

/-- The hidden layer of the reference at (p, j) is the specification's hidden unit j of row p. -/
theorem hidden_eq (x0 : (⟨S524288x32, .f32⟩ : BufTy).Contents (Elt Ideal)) (x1 : (⟨S524288x64, .f32⟩ : BufTy).Contents (Elt Ideal)) (x2 : (⟨S524288x128, .f32⟩ : BufTy).Contents (Elt Ideal)) (x4 : (⟨S64x32, .f32⟩ : BufTy).Contents (Elt Ideal)) (x5 : (⟨S64, .f32⟩ : BufTy).Contents (Elt Ideal)) (x8 : (⟨S64x64, .f32⟩ : BufTy).Contents (Elt Ideal)) (x9 : (⟨S64, .f32⟩ : BufTy).Contents (Elt Ideal)) (x12 : (⟨S64x128, .f32⟩ : BufTy).Contents (Elt Ideal)) (x13 : (⟨S64, .f32⟩ : BufTy).Contents (Elt Ideal))
    (p : Fin 524288) (j : Fin 64) :
    val_main_v22 (F := Ideal) x0 x1 x2 x4 x5 x8 x9 x12 x13 (ix2 p j) =
      Cert.Cell.hidden (fun k => x0 (ix2 p k)) (fun k => x1 (ix2 p k)) (fun k => x2 (ix2 p k))
        (fun j k => x4 (ix2 j k)) (fun j k => x8 (ix2 j k)) (fun j k => x12 (ix2 j k))
        (fun j => (x5 (ix1 j) + x9 (ix1 j)) + x13 (ix1 j)) j := by
  have hb9 : val_main_v3 (F := Ideal) x9 (ix2 p j) = x9 (ix1 j) := by
    rw [val_main_v3_apply, val_main_v2_apply]
    exact congrArg x9 (funext fun a => Fin.ext (by match a with | ⟨0, _⟩ => rfl))
  have hb13 : val_main_v8 (F := Ideal) x13 (ix2 p j) = x13 (ix1 j) := by
    rw [val_main_v8_apply, val_main_v7_apply]
    exact congrArg x13 (funext fun a => Fin.ext (by match a with | ⟨0, _⟩ => rfl))
  have hb5 : val_main_v14 (F := Ideal) x5 (ix2 p j) = x5 (ix1 j) := by
    rw [val_main_v14_apply, val_main_v13_apply]
    exact congrArg x5 (funext fun a => Fin.ext (by match a with | ⟨0, _⟩ => rfl))
  rw [val_main_v22_apply, val_main_v21_apply, val_main_v18_apply, val_main_v16_apply, val_main_v10_apply,
    val_main_v4_apply, val_main_v9_apply, val_main_v15_apply, val_main_v20_apply, val_main_v17_apply,
    val_main_v19_apply, val_main_cst_apply, val_main_cst_0_apply, dot_state, dot_second, dot_input, hb9, hb13, hb5]
  simp only [Ideal.hostUnary_tanh_def, Ideal.hostDivf_def, Ideal.addf_def, Ideal.mulf_def, Ideal.ofBits_def]
  rw [Cert.Cell.div_two, Cert.Cell.regroup]
  rfl

/-- The reference's result array is the specification's. -/
theorem ref_eq (x0 : (⟨S524288x32, .f32⟩ : BufTy).Contents (Elt Ideal)) (x1 : (⟨S524288x64, .f32⟩ : BufTy).Contents (Elt Ideal)) (x2 : (⟨S524288x128, .f32⟩ : BufTy).Contents (Elt Ideal)) (x4 : (⟨S64x32, .f32⟩ : BufTy).Contents (Elt Ideal)) (x5 : (⟨S64, .f32⟩ : BufTy).Contents (Elt Ideal)) (x6 : (⟨S32x64, .f32⟩ : BufTy).Contents (Elt Ideal)) (x7 : (⟨S32, .f32⟩ : BufTy).Contents (Elt Ideal)) (x8 : (⟨S64x64, .f32⟩ : BufTy).Contents (Elt Ideal)) (x9 : (⟨S64, .f32⟩ : BufTy).Contents (Elt Ideal)) (x12 : (⟨S64x128, .f32⟩ : BufTy).Contents (Elt Ideal)) (x13 : (⟨S64, .f32⟩ : BufTy).Contents (Elt Ideal)) :
    Cert.ReferenceIdeal.Read.val_main_v68 (F := Ideal) x0 x1 x2 x4 x5 x6 x7 x8 x9 x12 x13 = Cert.Cell.Y x0 x1 x2 x4 x5 x6 x7 x8 x9 x12 x13 := by
  funext i
  obtain ⟨p, o, rfl⟩ : ∃ (p : Fin 524288) (o : Fin 32), i = ix2 p o := ⟨i 0, i 1, eq_ix2 i⟩
  have hb : val_main_v66 (F := Ideal) x7 (ix2 p o) = x7 (ix1 o) := by
    rw [val_main_v66_apply, val_main_v65_apply]
    exact congrArg x7 (funext fun a => Fin.ext (by match a with | ⟨0, _⟩ => rfl))
  have hsum : val_main_v64 (F := Ideal) x0 x1 x2 x4 x5 x6 x8 x9 x12 x13 (ix2 p o) =
      ∑ j : Fin 64, Cert.Cell.hidden (fun k => x0 (ix2 p k)) (fun k => x1 (ix2 p k)) (fun k => x2 (ix2 p k))
        (fun j k => x4 (ix2 j k)) (fun j k => x8 (ix2 j k)) (fun j k => x12 (ix2 j k))
        (fun j => (x5 (ix1 j) + x9 (ix1 j)) + x13 (ix1 j)) j * x6 (ix2 o j) := by
    rw [val_main_v64_apply]
    refine Finset.sum_congr rfl fun k _ => ?_
    have e1 : lidx_main_v64 (ix2 p o) k = ix2 p k := funext fun a => Fin.ext (by match a with | ⟨0, _⟩ => rfl | ⟨1, _⟩ => rfl)
    have e2 : idx_main_v63 (ridx_main_v64 (ix2 p o) k) = ix2 o k := funext fun a => Fin.ext (by match a with | ⟨0, _⟩ => rfl | ⟨1, _⟩ => rfl)
    rw [e1, hidden_eq, val_main_v63_apply, e2]
  rw [val_main_v68_apply, val_main_v67_apply, hsum, hb]
  simp only [Ideal.hostUnary_tanh_def, Ideal.addf_def]
  rfl

end Cert.RefCell

end
-- ==== Proof.lean ====
/- The kernel computes one step of a small recurrent cell's output, row by row over a batch of 524288 rows,
       y = tanh (h · Wₒᵀ + bₒ),   h = tanh ((x · W₁ᵀ + s · W₂ᵀ + c · W₃ᵀ + ((b₁ + b₂) + b₃)) · ½ + ½ · s),
   in 64 blocks of 8192 rows, each block in four chunks of 2048 rows, the weights transposed and the three inner
   biases summed before the launch, the matrix products taken on operands narrowed to bf16.  The reference computes
   the same y with each inner layer carrying its own bias, the three layers summed second + third, then + first,
   and a quotient by 2 where the kernel multiplies by ½ (its two other state updates do not reach y).
   On the extended reals a narrowing is the identity, addition is commutative and associative, and a quotient by 2
   is the product with ½ everywhere, so both programs end with the same array: entry (p, o) is the cell's output o
   on row p of the arguments (CellSpec).  The kernel's side: a chunk at an index (ChunkValue), the four chunks of a
   block (BlockValue), what the launch finds in the arrays the host prepared (HostSide), the 64 blocks (ArrayValue).
   The reference's side: its operations read one at a time (RefIsCell).  No operand is asked to be finite.
   The ideal pass rewrote nothing, so that conjunct is trivial; the three frames are the generated runs. -/
import proofs.«137589_j20521353740318_2_alg».proof.Defs
import proofs.«137589_j20521353740318_2_alg».proof.Proof.Gen.Kernel
import proofs.«137589_j20521353740318_2_alg».proof.Proof.Gen.Kernel.Skeleton
import proofs.«137589_j20521353740318_2_alg».proof.Proof.Gen.Kernel.Launch
import proofs.«137589_j20521353740318_2_alg».proof.Proof.Gen.Kernel.Points
import proofs.«137589_j20521353740318_2_alg».proof.Proof.Gen.Kernel.Frame
import proofs.«137589_j20521353740318_2_alg».proof.Proof.Gen.KernelIdeal
import proofs.«137589_j20521353740318_2_alg».proof.Proof.Gen.KernelIdeal.Skeleton
import proofs.«137589_j20521353740318_2_alg».proof.Proof.Gen.KernelIdeal.Launch
import proofs.«137589_j20521353740318_2_alg».proof.Proof.Gen.KernelIdeal.Points
import proofs.«137589_j20521353740318_2_alg».proof.Proof.Gen.KernelIdeal.Frame
import proofs.«137589_j20521353740318_2_alg».proof.Proof.Gen.KernelIdeal.Value
import proofs.«137589_j20521353740318_2_alg».proof.Proof.Gen.ReferenceIdeal
import proofs.«137589_j20521353740318_2_alg».proof.Proof.Gen.ReferenceIdeal.Run
import proofs.«137589_j20521353740318_2_alg».proof.Proof.Gen.ReferenceIdeal.Read
import proofs.«137589_j20521353740318_2_alg».proof.Proof.Gen.Pre_finite_inputs
import proofs.«137589_j20521353740318_2_alg».proof.Proof.ArrayValue
import proofs.«137589_j20521353740318_2_alg».proof.Proof.RefIsCell
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- On the extended reals the kernel's result array ends at the cell's output of the launch arguments, and the
    reference's result, read one operation at a time, is the cell's output of its arguments; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21⟩ := hagree c
  rw [Cert.ReferenceIdeal.Read.val_main_v68_eq, Cert.RefCell.ref_eq, e0, e1, e2, e4, e5, e6, e7, e8, e9, e12, e13]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
